-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x64x64 : Shape := ⟨4, ![4, 128, 64, 64]⟩
abbrev S4x4096x4096 : Shape := ⟨3, ![4, 4096, 4096]⟩
abbrev S_ : Shape := ⟨0, ![]⟩

class Facts : Prop where
  bcast_S_S4x128x64x64 : S_.BroadcastsInDim S4x128x64x64 (![] : Fin 0 → Fin S4x128x64x64.rank)
  reducesTo_S4x128x64x64_S_d0_1_2_3 : S4x128x64x64.ReducesTo [0, 1, 2, 3] S_
  h_S_ : 0 < S_.numel

variable [Facts]

def fn {F : FTy → Type} [FloatOps F] (main_arg0 : FVec F S4x128x64x64 .f32) (main_arg1 : FVec F S4x128x64x64 .f32) (main_arg2 : IVec S4x4096x4096 32) : IVec S_ 1 :=
  let main_v0 : FVec F S4x128x64x64 .f32 := Host.absf main_arg0
  let main_cst : FVec F S_ .f32 := constant S_ .f32 0x7F800000#32
  let main_v1 : FVec F S4x128x64x64 .f32 := broadcastInDim S4x128x64x64 ![] bcast_S_S4x128x64x64 main_cst
  let main_v2 : IVec S4x128x64x64 1 := cmpf .olt main_v0 main_v1
  let main_c : IVec S_ 1 := constantI S_ 1 1#1
  let main_v3 : IVec S_ 1 := (fun x v => Host.reduce IntOp.andi x v reducesTo_S4x128x64x64_S_d0_1_2_3 h_S_) main_v2 main_c
  let main_v4 : FVec F S4x128x64x64 .f32 := Host.absf main_arg1
  let main_cst_0 : FVec F S_ .f32 := constant S_ .f32 0x7F800000#32
  let main_v5 : FVec F S4x128x64x64 .f32 := broadcastInDim S4x128x64x64 ![] bcast_S_S4x128x64x64 main_cst_0
  let main_v6 : IVec S4x128x64x64 1 := cmpf .olt main_v4 main_v5
  let main_c_1 : IVec S_ 1 := constantI S_ 1 1#1
  let main_v7 : IVec S_ 1 := (fun x v => Host.reduce IntOp.andi x v reducesTo_S4x128x64x64_S_d0_1_2_3 h_S_) main_v6 main_c_1
  let main_v8 : IVec S_ 1 := andi main_v3 main_v7
  main_v8
-- ==== Kernel.lean ====
abbrev S4x128x64x64 : Shape := ⟨4, ![4, 128, 64, 64]⟩
abbrev S4x4096x4096 : Shape := ⟨3, ![4, 4096, 4096]⟩
abbrev S4x128x4096 : Shape := ⟨3, ![4, 128, 4096]⟩
abbrev S4x4096x128 : Shape := ⟨3, ![4, 4096, 128]⟩
abbrev S1x2 : Shape := ⟨2, ![1, 2]⟩
abbrev S1x2048x128 : Shape := ⟨3, ![1, 2048, 128]⟩
abbrev S1x128x256 : Shape := ⟨3, ![1, 128, 256]⟩
abbrev S1x2048x256 : Shape := ⟨3, ![1, 2048, 256]⟩
abbrev S2048x128 : Shape := ⟨2, ![2048, 128]⟩
abbrev S128x256 : Shape := ⟨2, ![128, 256]⟩
abbrev S2048x256 : Shape := ⟨2, ![2048, 256]⟩
abbrev S2048 : Shape := ⟨1, ![2048]⟩
abbrev S2048x1 : Shape := ⟨2, ![2048, 1]⟩
abbrev S256 : Shape := ⟨1, ![256]⟩
abbrev S1x256 : Shape := ⟨2, ![1, 256]⟩
abbrev S1 : Shape := ⟨1, ![1]⟩
abbrev S1x1 : Shape := ⟨2, ![1, 1]⟩
abbrev S_ : Shape := ⟨0, ![]⟩

abbrev nBuf : Space → Nat
  | .hbm => 13
  | .vmem => 7
  | .smem => 0
  | _ => 0

abbrev bufTy : (tb : Table) → Fin (tcTables nBuf tb) → BufTy
  | .hbm, ⟨0, _⟩ => ⟨S4x128x64x64, .f32⟩
  | .hbm, ⟨1, _⟩ => ⟨S4x128x64x64, .f32⟩
  | .hbm, ⟨2, _⟩ => ⟨S4x4096x4096, .i32⟩
  | .hbm, ⟨3, _⟩ => ⟨S4x128x4096, .f32⟩
  | .hbm, ⟨4, _⟩ => ⟨S4x128x4096, .f32⟩
  | .hbm, ⟨5, _⟩ => ⟨S4x4096x128, .f32⟩
  | .hbm, ⟨6, _⟩ => ⟨S1x2, .f32⟩
  | .hbm, ⟨7, _⟩ => ⟨S1x1, .f32⟩
  | .hbm, ⟨8, _⟩ => ⟨S_, .f32⟩
  | .hbm, ⟨9, _⟩ => ⟨S1x1, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S1x2048x128, .f32⟩
  | .local _ .vmem, ⟨1, _⟩ => ⟨S1x2048x128, .f32⟩
  | .local _ .vmem, ⟨2, _⟩ => ⟨S1x128x256, .f32⟩
  | .local _ .vmem, ⟨3, _⟩ => ⟨S1x128x256, .f32⟩
  | .local _ .vmem, ⟨4, _⟩ => ⟨S1x2048x256, .i32⟩
  | .local _ .vmem, ⟨5, _⟩ => ⟨S1x2048x256, .i32⟩
  | .local _ .vmem, ⟨6, _⟩ => ⟨S1x2, .f32⟩
  | _, _ => ⟨S4x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨3, ![4, 2, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S1x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

class Facts₀ : Prop where
  shapeCasts_S4x128x64x64_S4x128x4096 : S4x128x64x64.ShapeCasts S4x128x4096
  transposes_S4x128x4096_S4x4096x128_0_2_1 : S4x128x4096.Transposes [0, 2, 1] S4x4096x128
  inb_S1x2_S1x2_0_0 : ∀ a, (![0, 0] : Fin 2 → Nat) a + S1x2.size a ≤ S1x2.size a
  h_S1x2 : 0 < S1x2.numel
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  bitsLt_bf16_f32 : FTy.bits .bf16 < FTy.bits .f32
  reduces_S2048x128_S2048 : S2048x128.Reduces [1] S2048
  shapeCasts_S2048_S2048x1 : S2048.ShapeCasts S2048x1
  reduces_S128x256_S256 : S128x256.Reduces [0] S256
  shapeCasts_S256_S1x256 : S256.ShapeCasts S1x256
  broadcasts_S2048x1_S2048x256 : S2048x1.Broadcasts S2048x256
  broadcasts_S1x256_S2048x256 : S1x256.Broadcasts S2048x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  natLt_1_32 : 1 < 32
  reduces_S2048x256_S2048 : S2048x256.Reduces [1] S2048
  reduces_S2048x1_S1 : S2048x1.Reduces [0] S1
  shapeCasts_S1_S1x1 : S1.ShapeCasts S1x1
  concatenates_S1x1_S1x1_S1x2_d1 : Shape.Concatenates [S1x1, S1x1] S1x2 1
  shapeCasts_S1x2_S1x2 : S1x2.ShapeCasts S1x2
  slices_S1x2_S1x1_0_0 : S1x2.Slices ![0, 0] S1x1
  shapeCasts_S1x1_S_ : S1x1.ShapeCasts S_
  slices_S1x2_S1x1_0_1 : S1x2.Slices ![0, 1] S1x1
  dot_S2048x128_S128x256_S2048x256_1_0_0_1_n_n_wf : DotDims.WF S2048x128 S128x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S4x4096x128.size a
  hwx0_0 : ∀ i : grid0.Coords, EltTy.bits .f32 = 32 ∨ (Rect.block (s := S4x4096x128) S1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x256.size a ≤ S4x128x4096.size a
  hwx0_1 : ∀ i : grid0.Coords, EltTy.bits .f32 = 32 ∨ (Rect.block (s := S4x128x4096) S1x128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x256.size a ≤ S4x4096x4096.size a
  hwx0_2 : ∀ i : grid0.Coords, EltTy.bits .i32 = 32 ∨ (Rect.block (s := S4x4096x4096) S1x2048x256.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2.size a ≤ S1x2.size a
  hwx0_3 : ∀ i : grid0.Coords, EltTy.bits .f32 = 32 ∨ (Rect.block (s := S1x2) S1x2.size (cc0_transform_3 i) (hinb0_3 i)).WholeWords (EltTy.packing .f32)

variable [Facts₀]

def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf

abbrev win0_0 : Pipeline.Window sig grid0 :=
  Pipeline.Window.ofSpec (Memref.whole main_v2) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x2.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x128x64x64 : Shape := ⟨4, ![4, 128, 64, 64]⟩
abbrev S4x4096x4096 : Shape := ⟨3, ![4, 4096, 4096]⟩
abbrev S4x128x4096 : Shape := ⟨3, ![4, 128, 4096]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩

abbrev nBuf : Space → Nat
  | .hbm => 38
  | .vmem => 0
  | .smem => 0
  | _ => 0

abbrev bufTy : (tb : Table) → Fin (tcTables nBuf tb) → BufTy
  | .hbm, ⟨0, _⟩ => ⟨S4x128x64x64, .f32⟩
  | .hbm, ⟨1, _⟩ => ⟨S4x128x64x64, .f32⟩
  | .hbm, ⟨2, _⟩ => ⟨S4x4096x4096, .i32⟩
  | .hbm, ⟨3, _⟩ => ⟨S4x128x4096, .f32⟩
  | .hbm, ⟨4, _⟩ => ⟨S4x128x4096, .f32⟩
  | .hbm, ⟨5, _⟩ => ⟨S4x128x4096, .f32⟩
  | .hbm, ⟨6, _⟩ => ⟨S_, .f32⟩
  | .hbm, ⟨7, _⟩ => ⟨S4x4096, .f32⟩
  | .hbm, ⟨8, _⟩ => ⟨S4x4096, .f32⟩
  | .hbm, ⟨9, _⟩ => ⟨S4x128x4096, .f32⟩
  | .hbm, ⟨10, _⟩ => ⟨S_, .f32⟩
  | .hbm, ⟨11, _⟩ => ⟨S4x4096, .f32⟩
  | .hbm, ⟨12, _⟩ => ⟨S4x4096, .f32⟩
  | .hbm, ⟨13, _⟩ => ⟨S4x4096x4096, .f32⟩
  | .hbm, ⟨14, _⟩ => ⟨S4x4096x1, .f32⟩
  | .hbm, ⟨15, _⟩ => ⟨S4x1x4096, .f32⟩
  | .hbm, ⟨16, _⟩ => ⟨S4x4096x4096, .f32⟩
  | .hbm, ⟨17, _⟩ => ⟨S4x4096x4096, .f32⟩
  | .hbm, ⟨18, _⟩ => ⟨S4x4096x4096, .f32⟩
  | .hbm, ⟨19, _⟩ => ⟨S_, .f32⟩
  | .hbm, ⟨20, _⟩ => ⟨S4x4096x4096, .f32⟩
  | .hbm, ⟨21, _⟩ => ⟨S4x4096x4096, .f32⟩
  | .hbm, ⟨22, _⟩ => ⟨S4x4096x4096, .f32⟩
  | .hbm, ⟨23, _⟩ => ⟨S_, .i32⟩
  | .hbm, ⟨24, _⟩ => ⟨S4x4096x4096, .i32⟩
  | .hbm, ⟨25, _⟩ => ⟨S4x4096x4096, .i1⟩
  | .hbm, ⟨26, _⟩ => ⟨S4x4096x4096, .i1⟩
  | .hbm, ⟨27, _⟩ => ⟨S_, .f32⟩
  | .hbm, ⟨28, _⟩ => ⟨S4x4096x4096, .f32⟩
  | .hbm, ⟨29, _⟩ => ⟨S4x4096x4096, .f32⟩
  | .hbm, ⟨30, _⟩ => ⟨S_, .f32⟩
  | .hbm, ⟨31, _⟩ => ⟨S_, .f32⟩
  | .hbm, ⟨32, _⟩ => ⟨S4x4096x4096, .i32⟩
  | .hbm, ⟨33, _⟩ => ⟨S_, .i32⟩
  | .hbm, ⟨34, _⟩ => ⟨S_, .i32⟩
  | .hbm, ⟨35, _⟩ => ⟨S_, .f32⟩
  | .hbm, ⟨36, _⟩ => ⟨S_, .f32⟩
  | .hbm, ⟨37, _⟩ => ⟨S_, .f32⟩
  | _, _ => ⟨S4x128x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_v2 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_call2_v0 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩

abbrev nD : Nat := 1
abbrev τ : Topo := Topo.v7x

variable {F : FTy → Type} [FloatOps F]

class Facts₀ : Prop where
  shapeCasts_S4x128x64x64_S4x128x4096 : S4x128x64x64.ShapeCasts S4x128x4096
  reducesTo_S4x128x4096_S4x4096_d1 : S4x128x4096.ReducesTo [1] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S_d0_1_2 : S4x4096x4096.ReducesTo [0, 1, 2] S_
  natLt_1_32 : 1 < 32
  dot_S4x128x4096_S4x128x4096_S4x4096x4096_1_1_2_2_0_0_wf : DotDims.WF S4x128x4096 S4x128x4096 S4x4096x4096 [1] [1] [2] [2] [0] [0]

variable [Facts₀]

def dot_S4x128x4096_S4x128x4096_S4x4096x4096_1_1_2_2_0_0 : DotDims S4x128x4096 S4x128x4096 S4x4096x4096 where
  lhsContracting := [1]
  rhsContracting := [1]
  lhsNonContracting := [2]
  rhsNonContracting := [2]
  lhsBatch := [0]
  rhsBatch := [0]
  wf := dot_S4x128x4096_S4x128x4096_S4x4096x4096_1_1_2_2_0_0_wf

class Facts : Prop extends Facts₀ where

variable [Facts]
-- ==== Proof.Spec.lean ====
/-
  The masked cosine-similarity mean as one function of the flattened feature arrays and the mask matrix.

  For an image `b`, a momentum position `p` and a base position `q` the similarity is
    cos b p q = (∑ c, M[b,c,p] · B[b,c,q]) / max (√(∑ c, M[b,c,p]²) · √(∑ c, B[b,c,q]²)) ε,
  a pair is selected when its matrix entry is not zero, and the loss is minus the sum of the selected similarities over
  their number. All of it is read on the extended reals, where a sum does not depend on its order or grouping; so the
  total over all pairs is the sum, over the 4 · 2 · 16 tiles of 2048 × 256 pairs, of each tile's own total
  (`sum_tiles`): the tiles partition the pairs.
-/
import Idealize.ShloMosaic.PureOps.Ideal
import Idealize.ShloMosaic.PureOps.Ideal.Laws
import Idealize.ShloMosaic.Lib.ValueIdx

noncomputable section

namespace Cert.CosMean

open Idealize.ShloMosaic Idealize.ShloMosaic.ValueIdx

/-- The flattened feature arrays: image, channel, position. -/
abbrev SFeat : Shape := ⟨3, ![4, 128, 4096]⟩
/-- The pair arrays: image, momentum position, base position. -/
abbrev SPair : Shape := ⟨3, ![4, 4096, 4096]⟩

/-- The clamp of the denominator, the f32 nearest 1e-6, as the extended real it denotes. -/
def eps : EReal := Ideal.ofBits .f32 0x358637BD#32

/-- The squared length of the channel vector at position `p` of image `b`. -/
def sqLen (A : SFeat.Idx → EReal) (b : Fin 4) (p : Fin 4096) : EReal := ∑ c : Fin 128, A (ix3 b c p) * A (ix3 b c p)

/-- The inner product of the momentum's channel vector at `p` with the base's at `q`, in image `b`. -/
def inner (B M : SFeat.Idx → EReal) (b : Fin 4) (p q : Fin 4096) : EReal := ∑ c : Fin 128, M (ix3 b c p) * B (ix3 b c q)

/-- The cosine similarity of the pair `(p, q)` of image `b`, its denominator clamped below by `eps`. -/
def cosAt (B M : SFeat.Idx → EReal) (b : Fin 4) (p q : Fin 4096) : EReal :=
  Ideal.div (inner B M b p q) (max (Ideal.sqrt (sqLen M b p) * Ideal.sqrt (sqLen B b q)) eps)

/-- Whether a pair is selected: its matrix entry is not zero. -/
def maskBit (X : SPair.Idx → BitVec 32) (i : SPair.Idx) : BitVec 1 := IntOp.cmpi .ne (X i) 0#32

/-- The same as a number, one or zero. -/
def maskAt (X : SPair.Idx → BitVec 32) (i : SPair.Idx) : EReal := (((maskBit X i).toNat : ℝ) : EReal)

/-- A pair's contribution to the sum: its similarity if selected, zero if not. -/
def selAt (B M : SFeat.Idx → EReal) (X : SPair.Idx → BitVec 32) (i : SPair.Idx) : EReal :=
  cosAt B M (i 0) (i 1) (i 2) * maskAt X i

/-- The sum of the selected similarities. -/
def selSum (B M : SFeat.Idx → EReal) (X : SPair.Idx → BitVec 32) : EReal := ∑ i : SPair.Idx, selAt B M X i

/-- The number of selected pairs. -/
def selCount (X : SPair.Idx → BitVec 32) : EReal := ∑ i : SPair.Idx, maskAt X i

/-- The loss: minus the mean of the selected similarities. -/
def loss (B M : SFeat.Idx → EReal) (X : SPair.Idx → BitVec 32) : EReal := Ideal.div (-(selSum B M X)) (selCount X)

theorem maskAt_eq_zero_or_one (X : SPair.Idx → BitVec 32) (i : SPair.Idx) : maskAt X i = 0 ∨ maskAt X i = 1 := by
  unfold maskAt
  have h : ∀ b : BitVec 1, b.toNat = 0 ∨ b.toNat = 1 := by decide
  rcases h (maskBit X i) with h | h <;> rw [h] <;> simp

/-! ## The tiles partition the pairs -/

/-- Pair `(r, q)` of tile `t`: tiles are numbered image-major, then by the block of 2048 momentum positions, then by the
    block of 256 base positions. -/
def tileIdx (t : Fin 128) (r : Fin 2048) (q : Fin 256) : SPair.Idx :=
  ix3 (⟨t.val / 32, by omega⟩ : Fin 4) (⟨t.val / 16 % 2 * 2048 + r.val, by omega⟩ : Fin 4096)
    (⟨t.val % 16 * 256 + q.val, by omega⟩ : Fin 4096)

/-- Every pair lies in exactly one tile, at exactly one place. -/
def tileEquiv : Fin 128 × Fin 2048 × Fin 256 ≃ SPair.Idx where
  toFun p := tileIdx p.1 p.2.1 p.2.2
  invFun i :=
    have h0 : (i 0).val < 4 := (i 0).isLt
    have h1 : (i 1).val < 4096 := (i 1).isLt
    have h2 : (i 2).val < 4096 := (i 2).isLt
    (⟨((i 0).val * 2 + (i 1).val / 2048) * 16 + (i 2).val / 256, by omega⟩, ⟨(i 1).val % 2048, by omega⟩,
      ⟨(i 2).val % 256, by omega⟩)
  left_inv := by
    rintro ⟨t, r, q⟩
    refine Prod.ext (Fin.ext ?_) (Prod.ext (Fin.ext ?_) (Fin.ext ?_))
    · show ((t.val / 32) * 2 + (t.val / 16 % 2 * 2048 + r.val) / 2048) * 16 + (t.val % 16 * 256 + q.val) / 256 = t.val
      omega
    · show (t.val / 16 % 2 * 2048 + r.val) % 2048 = r.val
      omega
    · show (t.val % 16 * 256 + q.val) % 256 = q.val
      omega
  right_inv := by
    intro i
    have h0 : (i 0).val < 4 := (i 0).isLt
    have h1 : (i 1).val < 4096 := (i 1).isLt
    have h2 : (i 2).val < 4096 := (i 2).isLt
    funext a
    match a with
    | ⟨0, _⟩ => exact Fin.ext (show (((i 0).val * 2 + (i 1).val / 2048) * 16 + (i 2).val / 256) / 32 = (i 0).val by omega)
    | ⟨1, _⟩ =>
      exact Fin.ext (show (((i 0).val * 2 + (i 1).val / 2048) * 16 + (i 2).val / 256) / 16 % 2 * 2048 + (i 1).val % 2048
        = (i 1).val by omega)
    | ⟨2, _⟩ =>
      exact Fin.ext (show (((i 0).val * 2 + (i 1).val / 2048) * 16 + (i 2).val / 256) % 16 * 256 + (i 2).val % 256
        = (i 2).val by omega)

/-- A total over all pairs is the sum of the tiles' totals. -/
theorem sum_tiles {A : Type*} [AddCommMonoid A] (f : SPair.Idx → A) :
    ∑ i : SPair.Idx, f i = ∑ t : Fin 128, ∑ r : Fin 2048, ∑ q : Fin 256, f (tileIdx t r q) := by
  rw [← Fintype.sum_equiv tileEquiv (fun p => f (tileIdx p.1 p.2.1 p.2.2)) f (fun _ => rfl), Fintype.sum_prod_type]
  exact Finset.sum_congr rfl fun t _ => Fintype.sum_prod_type _

end Cert.CosMean

end
-- ==== Proof.LibCountBits.lean ====
/-
  Counting ones with 32-bit words. A mask's count is often taken in integers: each selection bit is widened to a 32-bit
  word and the words are added. Addition of words is modulo 2³², but a sum of N words each zero or one cannot wrap while
  N < 2³²: every partial sum is at most the number of terms so far. So the word is the number of ones (`toNat_fold_bits`),
  and while N < 2³¹ its signed reading, taken as a real in the extended reals, is the sum of the bits as numbers
  (`toInt_fold_bits`) — the form in which a float count of the same mask meets it. Stated for any index type and any
  finite set of indices, over a fold of the word addition from the zero word.
-/
import Idealize.ShloMosaic.PureOps.Ideal
import Idealize.ShloMosaic.PureOps.Reduce

noncomputable section

namespace Cert.Lib.CountBits

open Idealize.ShloMosaic

/-- A one-bit value is at most one. -/
theorem bit_toNat_le_one (b : BitVec 1) : b.toNat ≤ 1 := by
  have h := b.isLt
  omega

/-- The 32-bit sum of bits widened to words is their number, while there are fewer than 2³² of them: no partial sum wraps. -/
theorem toNat_fold_bits {ι : Type*} (b : ι → BitVec 1) (S : Finset ι) (hS : S.card < 2 ^ 32) :
    (S.fold IntOp.addi 0#32 (fun i => (b i).setWidth 32)).toNat = ∑ i ∈ S, (b i).toNat := by
  induction S using Finset.cons_induction with
  | empty => simp
  | cons a T ha ih =>
    have hc : T.card + 1 < 2 ^ 32 := by rw [← Finset.card_cons ha]; exact hS
    have hT := ih (by omega)
    have hle : ∑ i ∈ T, (b i).toNat ≤ T.card := by
      have := Finset.sum_le_card_nsmul T (fun i => (b i).toNat) 1 (fun i _ => bit_toNat_le_one (b i))
      simpa using this
    rw [Finset.fold_cons, Finset.sum_cons]
    show ((b a).setWidth 32 + _).toNat = _
    rw [BitVec.toNat_add, hT, BitVec.toNat_setWidth]
    have h1 := bit_toNat_le_one (b a)
    rw [Nat.mod_eq_of_lt (a := (b a).toNat) (by omega), Nat.mod_eq_of_lt (by omega)]

/-- The inclusion of the reals in the extended reals carries a finite sum to the sum. -/
theorem coe_sum {ι : Type*} (f : ι → ℝ) (S : Finset ι) : ((∑ i ∈ S, f i : ℝ) : EReal) = ∑ i ∈ S, (f i : EReal) := by
  induction S using Finset.cons_induction with
  | empty => simp
  | cons a T ha ih => rw [Finset.sum_cons, Finset.sum_cons, EReal.coe_add, ih]

/-- Read signed and as a real, that sum is the sum of the bits, while there are fewer than 2³¹ of them. -/
theorem toInt_fold_bits {ι : Type*} (b : ι → BitVec 1) (S : Finset ι) (hS : S.card < 2 ^ 31) :
    (((S.fold IntOp.addi 0#32 (fun i => (b i).setWidth 32)).toInt : ℝ) : EReal) = ∑ i ∈ S, (((b i).toNat : ℝ) : EReal) := by
  have hN := toNat_fold_bits b S (by omega)
  have hle : ∑ i ∈ S, (b i).toNat ≤ S.card := by
    have := Finset.sum_le_card_nsmul S (fun i => (b i).toNat) 1 (fun i _ => bit_toNat_le_one (b i))
    simpa using this
  have hI : (S.fold IntOp.addi 0#32 (fun i => (b i).setWidth 32)).toInt = ((∑ i ∈ S, (b i).toNat : ℕ) : ℤ) := by
    rw [BitVec.toInt_eq_toNat_cond, hN, if_pos (by omega)]
  rw [hI, ← coe_sum]
  push_cast
  rfl

end Cert.Lib.CountBits

end
-- ==== Proof.RefLoss.lean ====
/-
  The reference program computes the specification's loss.

  Read one stage at a time at an index: the two norms are the roots of the squared lengths of the channel vectors, the
  contraction is the inner product, their quotient with the clamped product of the norms is the cosine similarity of a
  pair; the comparison of the matrix with zero is the selection bit, and a select between the similarity and zero is the
  similarity times that bit read as one or zero, so the float total over every pair is the sum of the selected
  similarities. The count is taken in 32-bit integers: the bits, widened to words, are added over every pair. A sum of
  N words each zero or one is, as a word, the number of ones while N < 2³², since no partial sum reaches 2³²; there are
  4 · 4096 · 4096 = 2²⁶ pairs, so the total is below 2³¹ and its signed reading is that number, the sum of the selection
  bits as numbers. The result, minus the float total over the converted count, is the loss.
-/
import proofs.«136778_j37254546325509_1_alg».proof.Proof.Gen.ReferenceIdeal.Read
import proofs.«136778_j37254546325509_1_alg».proof.Proof.Spec
import proofs.«136778_j37254546325509_1_alg».proof.Proof.LibCountBits
import Idealize.ShloMosaic.Lib.KernelVsHost
import Idealize.ShloMosaic.PureOps.Reduce

noncomputable section

namespace Cert.CosMean.Ref

open Idealize.ShloMosaic Idealize.ShloMosaic.ValueIdx

open Cert.Lib.CountBits

/-! ## The reference, stage by stage -/

open Cert.ReferenceIdeal Cert.ReferenceIdeal.Read

section Stages

variable (x0 x1 : (⟨S4x128x64x64, .f32⟩ : BufTy).Contents (Elt Ideal))
  (x2 : (⟨S4x4096x4096, .i32⟩ : BufTy).Contents (Elt Ideal))

/-- The base's norm at a position: the root of the squared length of its channel vector. -/
theorem v2_apply (j : S4x4096.Idx) :
    val_main_v2 (F := Ideal) x0 j = Ideal.sqrt (sqLen (val_main_v0 (F := Ideal) x0) (j 0) (j 1)) := by
  rw [val_main_v2_apply, Ideal.hostUnary_sqrt_def, val_main_call0_v1_apply, val_main_call0_cst_apply, Ideal.ofBits_def,
    Ideal.ofBits_zero_f32, zero_add]
  unfold sqLen
  refine congrArg Ideal.sqrt (Finset.sum_congr rfl fun k _ => ?_)
  rw [val_main_call0_v0_apply, Ideal.mulf_def]
  have e : idx_main_call0_v1 j k = ix3 (n0 := 4) (n1 := 128) (n2 := 4096) (j 0) k (j 1) :=
    funext fun a => by match a with | ⟨0, _⟩ => rfl | ⟨1, _⟩ => rfl | ⟨2, _⟩ => rfl
  rw [e]

/-- The momentum's norm at a position. -/
theorem v3_apply (j : S4x4096.Idx) :
    val_main_v3 (F := Ideal) x1 j = Ideal.sqrt (sqLen (val_main_v1 (F := Ideal) x1) (j 0) (j 1)) := by
  rw [val_main_v3_apply, Ideal.hostUnary_sqrt_def, val_main_call1_v1_apply, val_main_call1_cst_apply, Ideal.ofBits_def,
    Ideal.ofBits_zero_f32, zero_add]
  unfold sqLen
  refine congrArg Ideal.sqrt (Finset.sum_congr rfl fun k _ => ?_)
  rw [val_main_call1_v0_apply, Ideal.mulf_def]
  have e : idx_main_call1_v1 j k = ix3 (n0 := 4) (n1 := 128) (n2 := 4096) (j 0) k (j 1) :=
    funext fun a => by match a with | ⟨0, _⟩ => rfl | ⟨1, _⟩ => rfl | ⟨2, _⟩ => rfl
  rw [e]

/-- The quotient stage at a pair is the pair's cosine similarity. -/
theorem v12_apply (i : S4x4096x4096.Idx) :
    val_main_v12 (F := Ideal) x0 x1 i
      = cosAt (val_main_v0 (F := Ideal) x0) (val_main_v1 (F := Ideal) x1) (i 0) (i 1) (i 2) := by
  rw [val_main_v12_apply, Ideal.hostDivf_def, val_main_v4_apply, val_main_v11_apply, Ideal.maximumf_def, val_main_v9_apply,
    Ideal.mulf_def, val_main_v7_apply, val_main_v5_apply, v3_apply, val_main_v8_apply, val_main_v6_apply, v2_apply,
    val_main_v10_apply, val_main_cst_apply, Ideal.ofBits_def]
  unfold cosAt inner eps
  refine congrArg₂ Ideal.div (Finset.sum_congr rfl fun k _ => ?_) rfl
  have el : lidx_main_v4 i k = ix3 (n0 := 4) (n1 := 128) (n2 := 4096) (i 0) k (i 1) :=
    funext fun a => by match a with | ⟨0, _⟩ => rfl | ⟨1, _⟩ => rfl | ⟨2, _⟩ => rfl
  have er : ridx_main_v4 i k = ix3 (n0 := 4) (n1 := 128) (n2 := 4096) (i 0) k (i 2) :=
    funext fun a => by match a with | ⟨0, _⟩ => rfl | ⟨1, _⟩ => rfl | ⟨2, _⟩ => rfl
  rw [el, er]

end Stages

section Selection

variable (x0 x1 : (⟨S4x128x64x64, .f32⟩ : BufTy).Contents (Elt Ideal))
  (x2 : (⟨S4x4096x4096, .i32⟩ : BufTy).Contents (Elt Ideal))

/-- The program's selection bit at a pair is the specification's: the matrix entry is not zero. -/
theorem v15_apply (i : S4x4096x4096.Idx) : val_main_v15 (F := Ideal) x2 i = maskBit x2 i := by
  rw [val_main_v15_apply, val_main_v14_apply, val_main_v13_apply, val_main_c_apply]
  rfl

/-- A one-bit value is zero or one. -/
theorem bit_cases : ∀ b : BitVec 1, b = 0#1 ∨ b = 1#1 := by decide

/-- The selected similarity at a pair: the similarity times the selection, one or zero. -/
theorem v16_apply (i : S4x4096x4096.Idx) :
    val_main_v16 (F := Ideal) x0 x1 x2 i = selAt (val_main_v0 (F := Ideal) x0) (val_main_v1 (F := Ideal) x1) x2 i := by
  rw [val_main_v16_apply, v15_apply, v12_apply, val_main_call2_v0_apply, val_main_cst_0_apply, Ideal.ofBits_def,
    Ideal.ofBits_zero_f32]
  unfold selAt maskAt
  rcases bit_cases (maskBit x2 i) with h | h
  · rw [h, select_zero]
    show (0 : EReal) = _ * (((0 : ℕ) : ℝ) : EReal)
    rw [Nat.cast_zero, EReal.coe_zero, mul_zero]
  · rw [h, select_one]
    show _ = _ * (((1 : ℕ) : ℝ) : EReal)
    rw [Nat.cast_one, EReal.coe_one, mul_one]

/-- The float total over every pair is the sum of the selected similarities. -/
theorem v17_apply (j : S_.Idx) :
    val_main_v17 (F := Ideal) x0 x1 x2 j = selSum (val_main_v0 (F := Ideal) x0) (val_main_v1 (F := Ideal) x1) x2 := by
  rw [val_main_v17_apply, val_main_cst_1_apply, Ideal.ofBits_def, Ideal.ofBits_zero_f32, zero_add]
  unfold selSum
  exact Finset.sum_congr rfl fun i _ => v16_apply x0 x1 x2 i

/-- There are 2²⁶ pairs, fewer than 2³¹. -/
theorem card_pairs : (Finset.univ : Finset S4x4096x4096.Idx).card < 2 ^ 31 := by
  rw [Finset.card_univ, Shape.card_idx]
  unfold Shape.numel
  rw [Fin.prod_univ_three]
  decide

/-- The integer total is the 32-bit sum, over every pair, of the selection bits widened to words. -/
theorem v19_apply (j : S_.Idx) :
    val_main_v19 (F := Ideal) x2 j
      = (Finset.univ : Finset S4x4096x4096.Idx).fold IntOp.addi 0#32 (fun i => (maskBit x2 i).setWidth 32) := by
  unfold val_main_v19
  rw [Host.reduce_eq_fold, Finset.filter_true_of_mem (fun i _ => funext fun a => a.elim0), val_main_c_2_apply]
  refine congrArg (fun f => Finset.fold IntOp.addi 0#32 f Finset.univ) (funext fun i => ?_)
  rw [val_main_v18_apply, v15_apply]

/-- Converted to a float, the integer total is the number of selected pairs. -/
theorem v20_apply (j : S_.Idx) : val_main_v20 (F := Ideal) x2 j = selCount x2 := by
  rw [val_main_v20_apply, v19_apply]
  exact toInt_fold_bits (fun i => maskBit x2 i) Finset.univ card_pairs

end Selection

/-- The reference's result is the specification's loss of the flattened features and the matrix. -/
theorem loss_eq (x0 x1 : (⟨Cert.ReferenceIdeal.S4x128x64x64, .f32⟩ : BufTy).Contents (Elt Ideal))
    (x2 : (⟨Cert.ReferenceIdeal.S4x4096x4096, .i32⟩ : BufTy).Contents (Elt Ideal)) :
    Cert.ReferenceIdeal.Read.val_main_v22 (F := Ideal) x0 x1 x2
      = fun _ => Cert.CosMean.loss (Cert.ReferenceIdeal.Read.val_main_v0 (F := Ideal) x0)
          (Cert.ReferenceIdeal.Read.val_main_v1 (F := Ideal) x1) x2 := by
  funext j
  rw [val_main_v22_apply, Ideal.hostDivf_def, val_main_v21_apply, Ideal.hostNegf_def, Ideal.negf_def, v17_apply, v20_apply]
  rfl

end Cert.CosMean.Ref

end
-- ==== Proof.Found.lean ====
/-
  What one grid point leaves in the accumulator block, as a value. The accumulator is a [1,2] block that every grid point
  maps to, so it is carried from point to point: the first point overwrites it with zeros and then adds its tile's two
  totals, every later point adds its tile's totals to what the point before left. Here the two cases' final contents are
  read as the body's stored value (the skeleton's `k0_pay1`) of the three input blocks and of the contents found.
-/
import proofs.«136778_j37254546325509_1_alg».proof.Proof.Gen.KernelIdeal.Frame
import proofs.«136778_j37254546325509_1_alg».proof.Proof.Spec
import Idealize.ShloMosaic.Lib.Pipeline.Value
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Found

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A point that is not the first: the accumulator block holds `xo`, the body reads the three input blocks whole, and its
    one store covers the accumulator with the stored value of the blocks and `xo`. -/
theorem out_B (c : Dev nD) (i : grid0.Coords) (a3 : Memref sig .tc .vmem S1x2048x128 .f32) (h3 : a3.IsWhole)
    (a4 : Memref sig .tc .vmem S1x128x256 .f32) (h4 : a4.IsWhole) (a5 : Memref sig .tc .vmem S1x2048x256 .i32) (h5 : a5.IsWhole)
    (a6 : Memref sig .tc .vmem S1x2 .f32) (h6 : a6.IsWhole) (hc : ¬cond0_0 i)
    (x0 : Vec F S1x2048x128 .f32) (x1 : Vec F S1x128x256 .f32) (x2 : Vec F S1x2048x256 .i32) (xo : Vec F S1x2 .f32) :
    out0_B_3 c i a3 h3 a4 h4 a5 h5 a6 h6 hc x0 x1 x2 xo = k0_pay1 (k0_pay3 x2) (k0_pay4 x0 x1 x2) xo := by
  unfold out0_B_3
  rw [View.read_writes_eq_canon _ _ _ (cover0_B_3 c i a3 h3 a4 h4 a5 h5 a6 h6 hc x0 x1 x2 xo)]
  unfold kernelRun0_B
  dsimp only
  sl_unfold_words
  rw [View.canon_unit_zero hz2]
  simp only [View.readAt_eq_ld, h3.read_unread, h4.read_unread, h5.read_unread, h6.read_unread,
    View.ld_unit_zero (S := S1x2) hz2, View.ld_unit_zero (S := S1x2048x128) hz3, View.ld_unit_zero (S := S1x128x256) hz3,
    View.ld_unit_zero (S := S1x2048x256) hz3]

/-- The first point: the body first covers the accumulator block with zeros, reads them back, and then stores the same
    value of the blocks over those zeros. -/
theorem out_A (c : Dev nD) (i : grid0.Coords) (a3 : Memref sig .tc .vmem S1x2048x128 .f32) (h3 : a3.IsWhole)
    (a4 : Memref sig .tc .vmem S1x128x256 .f32) (h4 : a4.IsWhole) (a5 : Memref sig .tc .vmem S1x2048x256 .i32) (h5 : a5.IsWhole)
    (a6 : Memref sig .tc .vmem S1x2 .f32) (h6 : a6.IsWhole) (hc : cond0_0 i)
    (x0 : Vec F S1x2048x128 .f32) (x1 : Vec F S1x128x256 .f32) (x2 : Vec F S1x2048x256 .i32) :
    out0_A_3 c i a3 h3 a4 h4 a5 h5 a6 h6 hc x0 x1 x2 = k0_pay1 (k0_pay3 x2) (k0_pay4 x0 x1 x2) (k0_pay2 (F := F)) := by
  unfold out0_A_3
  rw [View.read_writes_eq_canon _ _ _ (cover0_A_3 c i a3 h3 a4 h4 a5 h5 a6 h6 hc x0 x1 x2)]
  unfold kernelRun0_A
  dsimp only
  sl_unfold_words
  rw [View.canon_cons_unit_zero (S := S1x2) hz2, View.readCov_unit_zero (S := S1x2) _ hz2]
  simp only [View.readAt_eq_ld, h3.read_unread, h4.read_unread, h5.read_unread,
    View.ld_unit_zero (S := S1x2) hz2, View.ld_unit_zero (S := S1x2048x128) hz3, View.ld_unit_zero (S := S1x128x256) hz3,
    View.ld_unit_zero (S := S1x2048x256) hz3]

end Cert.KernelIdeal.Found
end
-- ==== Proof.Blocks.lean ====
/-
  What the three input windows stage at a grid point, read off the feature arrays. Before the region the host flattens
  both feature arrays to [image, channel, position] and transposes the momentum one to [image, position, channel]. The
  grid is image-major, then the block of 2048 momentum positions, then the block of 256 base positions; so at tile `t`
  the momentum window holds rows `2048·i + r` of image `b` with every channel, the base window every channel of columns
  `256·j + q`, and the matrix window the pairs (`2048·i + r`, `256·j + q`), where `b = t / 32`, `i = t / 16 % 2`,
  `j = t % 16`.
-/
import proofs.«136778_j37254546325509_1_alg».proof.Proof.Gen.KernelIdeal.Frame
import proofs.«136778_j37254546325509_1_alg».proof.Proof.Spec
import Idealize.ShloMosaic.Lib.Pipeline.Value
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx Cert.CosMean

variable {F : FTy → Type} [FloatOps F]
variable (m : (ℓ : Loc nD τ sig) → Buf (Elt F) ℓ)

/-- The base features flattened to image, channel, position. -/
abbrev baseF (c : Dev nD) : S4x128x4096.Idx → F .f32 :=
  shapeCast S4x128x4096 (m ((c : Thread nD τ).loc main_arg0)) shapeCasts_S4x128x64x64_S4x128x4096
/-- The momentum features flattened likewise. -/
abbrev momF (c : Dev nD) : S4x128x4096.Idx → F .f32 :=
  shapeCast S4x128x4096 (m ((c : Thread nD τ).loc main_arg1)) shapeCasts_S4x128x64x64_S4x128x4096

theorem V_v0 (c : Dev nD) : (V m c main_v0 : S4x128x4096.Idx → F .f32) = baseF m c := by
  show StableHlo.after hostOps0 (fun b => m (c, b)) (Proc.devRef .tc main_v0) = _
  after_results
  rfl

theorem V_v2 (c : Dev nD) : (V m c main_v2 : S4x4096x128.Idx → F .f32)
    = transpose S4x4096x128 [0, 2, 1] (momF m c) transposes_S4x128x4096_S4x4096x128_0_2_1 := by
  show StableHlo.after hostOps0 (fun b => m (c, b)) (Proc.devRef .tc main_v2) = _
  after_results
  rfl

/-- Tile `t`'s image, and the positions of its row `r` and its column `q`. -/
def tImg (t : Fin cfg0.N) : Fin 4 :=
  ⟨t.val / 32, by have h : t.val < 128 := lt_of_lt_of_eq t.isLt (show cfg0.N = 128 from N_0); omega⟩
def tRow (t : Fin cfg0.N) (r : Fin 2048) : Fin 4096 :=
  ⟨t.val / 16 % 2 * 2048 + r.val, by omega⟩
def tCol (t : Fin cfg0.N) (q : Fin 256) : Fin 4096 := ⟨t.val % 16 * 256 + q.val, by omega⟩

theorem tileIdx_eq (t : Fin cfg0.N) (r : Fin 2048) (q : Fin 256) :
    tileIdx (t.cast N_0) r q = ix3 (tImg t) (tRow t r) (tCol t q) := rfl

/-- The three input windows' block indices at point `t`: the grid is image-major, then the row block, then the column block. -/
theorem index0 : ∀ t : Fin cfg0.N, win0_0.index t (0 : Fin 3) = t.val / 32 ∧ win0_0.index t (1 : Fin 3) = t.val / 16 % 2
      ∧ win0_0.index t (2 : Fin 3) = 0 :=
  (by decide +kernel : ∀ t : Fin grid0.N, win0_0.index t (0 : Fin 3) = t.val / 32 ∧ win0_0.index t (1 : Fin 3) = t.val / 16 % 2
      ∧ win0_0.index t (2 : Fin 3) = 0)
theorem index1 : ∀ t : Fin cfg0.N, win0_1.index t (0 : Fin 3) = t.val / 32 ∧ win0_1.index t (1 : Fin 3) = 0
      ∧ win0_1.index t (2 : Fin 3) = t.val % 16 :=
  (by decide +kernel : ∀ t : Fin grid0.N, win0_1.index t (0 : Fin 3) = t.val / 32 ∧ win0_1.index t (1 : Fin 3) = 0
      ∧ win0_1.index t (2 : Fin 3) = t.val % 16)
theorem index2 : ∀ t : Fin cfg0.N, win0_2.index t (0 : Fin 3) = t.val / 32 ∧ win0_2.index t (1 : Fin 3) = t.val / 16 % 2
      ∧ win0_2.index t (2 : Fin 3) = t.val % 16 :=
  (by decide +kernel : ∀ t : Fin grid0.N, win0_2.index t (0 : Fin 3) = t.val / 32 ∧ win0_2.index t (1 : Fin 3) = t.val / 16 % 2
      ∧ win0_2.index t (2 : Fin 3) = t.val % 16)

/-- The momentum block of tile `t` at (row `r`, channel `k`). -/
theorem iblk0_apply (c : Dev nD) (t : Fin cfg0.N) (r : Fin 2048) (k : Fin 128) :
    (iblk m c 0 t : Vec F S1x2048x128 .f32) (ix3 0 r k) = momF m c (ix3 (tImg t) k (tRow t r)) := by
  unfold iblk
  rw [View.read_apply]
  show V m c main_v2 _ = _
  rw [V_v2]
  refine transpose_apply _ _ _ _ _ fun b => ?_
  match b with
  | ⟨0, _⟩ => show t.val / 32 = win0_0.index t 0 * 1 + 1 * 0; rw [(index0 t).1]; omega
  | ⟨1, _⟩ => show t.val / 16 % 2 * 2048 + r.val = win0_0.index t 1 * 2048 + 1 * r.val; rw [(index0 t).2.1]; omega
  | ⟨2, _⟩ => show k.val = win0_0.index t 2 * 128 + 1 * k.val; rw [(index0 t).2.2]; omega

/-- The base block of tile `t` at (channel `k`, column `q`). -/
theorem iblk1_apply (c : Dev nD) (t : Fin cfg0.N) (k : Fin 128) (q : Fin 256) :
    (iblk m c 1 t : Vec F S1x128x256 .f32) (ix3 0 k q) = baseF m c (ix3 (tImg t) k (tCol t q)) := by
  unfold iblk
  rw [View.read_apply]
  show V m c main_v0 _ = _
  rw [V_v0]
  refine congrArg (baseF m c) (funext fun b => Fin.ext ?_)
  match b with
  | ⟨0, _⟩ => show win0_1.index t 0 * 1 + 1 * 0 = t.val / 32; rw [(index1 t).1]; omega
  | ⟨1, _⟩ => show win0_1.index t 1 * 128 + 1 * k.val = k.val; rw [(index1 t).2.1]; omega
  | ⟨2, _⟩ => show win0_1.index t 2 * 256 + 1 * q.val = t.val % 16 * 256 + q.val; rw [(index1 t).2.2]; omega

/-- The matrix block of tile `t` at (row `r`, column `q`). -/
theorem iblk2_apply (c : Dev nD) (t : Fin cfg0.N) (r : Fin 2048) (q : Fin 256) :
    (iblk m c 2 t : Vec F S1x2048x256 .i32) (ix3 0 r q)
      = (m ((c : Thread nD τ).loc main_arg2) : S4x4096x4096.Idx → BitVec 32) (ix3 (tImg t) (tRow t r) (tCol t q)) := by
  unfold iblk
  rw [View.read_apply]
  show V m c main_arg2 _ = _
  rw [V_main_arg2]
  refine congrArg (m ((c : Thread nD τ).loc main_arg2)) (funext fun b => Fin.ext ?_)
  match b with
  | ⟨0, _⟩ => show win0_2.index t 0 * 1 + 1 * 0 = t.val / 32; rw [(index2 t).1]; omega
  | ⟨1, _⟩ => show win0_2.index t 1 * 2048 + 1 * r.val = t.val / 16 % 2 * 2048 + r.val; rw [(index2 t).2.1]; omega
  | ⟨2, _⟩ => show win0_2.index t 2 * 256 + 1 * q.val = t.val % 16 * 256 + q.val; rw [(index2 t).2.2]; omega

end Cert.KernelIdeal.Blocks
end
-- ==== Proof.TileTotal.lean ====
/-
  What one grid point adds to the two running totals, as plain sums over its tile.

  A tile is 2048 momentum positions by 256 base positions of one image. From the staged blocks — the momentum block
  x0 [1,2048,128] (position, channel), the base block x1 [1,128,256] (channel, position) and the mask block
  x2 [1,2048,256] — the body forms, for each pair (r, q), the inner product ∑ k, x0[0,r,k] · x1[0,k,q], the two lengths
  √(∑ k, x0[0,r,k]²) and √(∑ k, x1[0,k,q]²), their product clamped below by ε, the quotient (`tcos`), and the selection
  bit as a number (`tmask`); it sums quotient · bit over q and then over r, sums the bit the same way, puts the two
  totals side by side and adds them to what the accumulator held. Read on the extended reals, where a change of float
  format is the identity and a sum over one axis is a finite sum, each stage is read at an index:
    · a shape cast that drops or adds a unit axis, and a broadcast of a column or a row, read the operand at the
      evident index (`shapeCast_a_a1_apply`, `broadcastTo_a1_ab_apply`, and the library's forms);
    · a sum over one axis is the sum over that axis's coordinate (`sum_row128`, `sum_col128`, `sum_row256`, `sum_col1`);
    · the product into the zero array is the sum over the shared axis (`matmul_at`);
    · the bit widened to 32 bits and converted is the bit's value, one or zero (`pay3_at`);
    · two one-element pieces side by side are read at (0, 0) and (0, 1) (`concat_at_0`, `concat_at_1`).
  The results: `pay4_at` (a row's masked sum), `pay1_sum`, `pay1_cnt` (the two totals) and `pay2_zero` (the first grid
  point's store is zero).
-/
import proofs.«136778_j37254546325509_1_alg».proof.Proof.Gen.KernelIdeal.Skeleton
import proofs.«136778_j37254546325509_1_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.KernelVsHost

noncomputable section

namespace Cert.CosMean.Tile

open Idealize.ShloMosaic Idealize.ShloMosaic.ValueIdx Cert.KernelIdeal Cert.KernelIdeal.Gen

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The sums over one axis -/

/-- The sum of a `[2048, 128]` array over its second axis, at row `r`. -/
theorem sum_row128 (v : FVec Ideal S2048x128 .f32) (r : Fin 2048) :
    multiReduction (F := Ideal) .add [1] S2048 v 0x00000000#32 reduces_S2048x128_S2048 (.inl rfl) rfl (ix1 r)
      = ∑ k : Fin 128, v (ix2 r k) := by
  refine (Ideal.multiReduction_add_single v _ reduces_S2048x128_S2048 (.inl rfl) rfl (ix1 r)).trans ?_
  refine Finset.sum_congr rfl fun k _ => congrArg v (funext fun c => ?_)
  match c with
  | ⟨0, _⟩ => exact Fin.ext rfl
  | ⟨1, _⟩ => exact Fin.ext rfl

/-- The sum of a `[128, 256]` array over its first axis, at column `q`. -/
theorem sum_col128 (v : FVec Ideal S128x256 .f32) (q : Fin 256) :
    multiReduction (F := Ideal) .add [0] S256 v 0x00000000#32 reduces_S128x256_S256 (.inl rfl) rfl (ix1 q)
      = ∑ k : Fin 128, v (ix2 k q) := by
  refine (Ideal.multiReduction_add_single v _ reduces_S128x256_S256 (.inl rfl) rfl (ix1 q)).trans ?_
  refine Finset.sum_congr rfl fun k _ => congrArg v (funext fun c => ?_)
  match c with
  | ⟨0, _⟩ => exact Fin.ext rfl
  | ⟨1, _⟩ => exact Fin.ext rfl

/-- The sum of a `[2048, 256]` array over its second axis, at row `r`. -/
theorem sum_row256 (v : FVec Ideal S2048x256 .f32) (r : Fin 2048) :
    multiReduction (F := Ideal) .add [1] S2048 v 0x00000000#32 reduces_S2048x256_S2048 (.inl rfl) rfl (ix1 r)
      = ∑ q : Fin 256, v (ix2 r q) := by
  refine (Ideal.multiReduction_add_single v _ reduces_S2048x256_S2048 (.inl rfl) rfl (ix1 r)).trans ?_
  refine Finset.sum_congr rfl fun k _ => congrArg v (funext fun c => ?_)
  match c with
  | ⟨0, _⟩ => exact Fin.ext rfl
  | ⟨1, _⟩ => exact Fin.ext rfl

/-- The sum of a column `[2048, 1]` over its first axis. -/
theorem sum_col1 (v : FVec Ideal S2048x1 .f32) (u : Fin 1) :
    multiReduction (F := Ideal) .add [0] S1 v 0x00000000#32 reduces_S2048x1_S1 (.inl rfl) rfl (ix1 u)
      = ∑ r : Fin 2048, v (ix2 r 0) := by
  refine (Ideal.multiReduction_add_single v _ reduces_S2048x1_S1 (.inl rfl) rfl (ix1 u)).trans ?_
  refine Finset.sum_congr rfl fun k _ => congrArg v (funext fun c => ?_)
  match c with
  | ⟨0, _⟩ => exact Fin.ext rfl
  | ⟨1, _⟩ => exact Fin.ext (by have := u.isLt; show u.val = 0; omega)

/-! ## The matrix product -/

theorem lhs_0 (i : S2048x256.Idx) (c : dot_S2048x128_S128x256_S2048x256_1_0_0_1_n_n.contr.Idx) : (dot_S2048x128_S128x256_S2048x256_1_0_0_1_n_n.lhsIdx i c 0).val = (i 0).val := by
  unfold DotDims.lhsIdx
  rw [dif_neg (show ¬(0 : Fin S2048x128.rank) ∈ dot_S2048x128_S128x256_S2048x256_1_0_0_1_n_n.lhsBatch by decide),
    dif_pos (show (0 : Fin S2048x128.rank) ∈ dot_S2048x128_S128x256_S2048x256_1_0_0_1_n_n.lhsNonContracting by decide)]
  rfl
theorem lhs_1 (i : S2048x256.Idx) (c : dot_S2048x128_S128x256_S2048x256_1_0_0_1_n_n.contr.Idx) : (dot_S2048x128_S128x256_S2048x256_1_0_0_1_n_n.lhsIdx i c 1).val = (c ⟨0, by decide⟩).val :=
  dot_S2048x128_S128x256_S2048x256_1_0_0_1_n_n.lhsIdx_val_of_single rfl i c
theorem rhs_0 (i : S2048x256.Idx) (c : dot_S2048x128_S128x256_S2048x256_1_0_0_1_n_n.contr.Idx) : (dot_S2048x128_S128x256_S2048x256_1_0_0_1_n_n.rhsIdx i c 0).val = (c ⟨0, by decide⟩).val :=
  dot_S2048x128_S128x256_S2048x256_1_0_0_1_n_n.rhsIdx_val_of_single rfl i c
theorem rhs_1 (i : S2048x256.Idx) (c : dot_S2048x128_S128x256_S2048x256_1_0_0_1_n_n.contr.Idx) : (dot_S2048x128_S128x256_S2048x256_1_0_0_1_n_n.rhsIdx i c 1).val = (i 1).val := by
  unfold DotDims.rhsIdx
  rw [dif_neg (show ¬(1 : Fin S128x256.rank) ∈ dot_S2048x128_S128x256_S2048x256_1_0_0_1_n_n.rhsBatch by decide),
    dif_pos (show (1 : Fin S128x256.rank) ∈ dot_S2048x128_S128x256_S2048x256_1_0_0_1_n_n.rhsNonContracting by decide)]
  rfl

/-- The product into the zero array, at `(r, q)`: the sum over the shared axis. -/
theorem matmul_at (a : FVec Ideal S2048x128 .bf16) (b : FVec Ideal S128x256 .bf16) (r : Fin 2048) (q : Fin 256) :
    matmul (F := Ideal) dot_S2048x128_S128x256_S2048x256_1_0_0_1_n_n none a b (constant S2048x256 .f32 0x00000000#32) (ix2 r q)
      = ∑ k : Fin 128, a (ix2 r k) * b (ix2 k q) := by
  refine (Ideal.matmul_constant_zero_apply dot_S2048x128_S128x256_S2048x256_1_0_0_1_n_n none a b (ix2 r q)).trans ?_
  rw [← Equiv.sum_comp (contrEquiv1 dot_S2048x128_S128x256_S2048x256_1_0_0_1_n_n 128 rfl rfl).symm]
  refine Finset.sum_congr rfl fun k _ => ?_
  have hk := contrEquiv1_symm_val dot_S2048x128_S128x256_S2048x256_1_0_0_1_n_n 128 rfl rfl k
  have el : dot_S2048x128_S128x256_S2048x256_1_0_0_1_n_n.lhsIdx (ix2 r q) ((contrEquiv1 dot_S2048x128_S128x256_S2048x256_1_0_0_1_n_n 128 rfl rfl).symm k) = ix2 r k :=
    funext fun c => Fin.ext (by
      match c with
      | ⟨0, _⟩ => exact lhs_0 _ _
      | ⟨1, _⟩ => exact (lhs_1 _ _).trans hk)
  have er : dot_S2048x128_S128x256_S2048x256_1_0_0_1_n_n.rhsIdx (ix2 r q) ((contrEquiv1 dot_S2048x128_S128x256_S2048x256_1_0_0_1_n_n 128 rfl rfl).symm k) = ix2 k q :=
    funext fun c => Fin.ext (by
      match c with
      | ⟨0, _⟩ => exact (rhs_0 _ _).trans hk
      | ⟨1, _⟩ => exact rhs_1 _ _)
  rw [el, er]

/-! ## The tile's similarities and mask -/

/-- the similarity of row r and column q of a tile, from its staged blocks: x0 the momentum block [1,2048,128]
    (position, channel), x1 the base block [1,128,256] (channel, position) -/
def tcos (x0 : Vec Ideal S1x2048x128 .f32) (x1 : Vec Ideal S1x128x256 .f32) (r : Fin 2048) (q : Fin 256) : EReal :=
  Ideal.div (∑ k : Fin 128, x0 (ix3 0 r k) * x1 (ix3 0 k q))
    (max (Ideal.sqrt (∑ k : Fin 128, x0 (ix3 0 r k) * x0 (ix3 0 r k)) * Ideal.sqrt (∑ k : Fin 128, x1 (ix3 0 k q) * x1 (ix3 0 k q))) Cert.CosMean.eps)

/-- whether the tile's pair (r, q) is selected, as one or zero -/
def tmask (x2 : Vec Ideal S1x2048x256 .i32) (r : Fin 2048) (q : Fin 256) : EReal :=
  (((IntOp.cmpi .ne (x2 (ix3 0 r q)) 0#32).toNat : ℝ) : EReal)

/-- A square root taken elementwise, at an index. -/
theorem sqrt_apply {s : Shape} {φ : FTy} (a : FVec Ideal s φ) (i : s.Idx) : sqrt a i = Ideal.sqrt (a i) := rfl

/-- The mask as a number: the comparison's bit, widened and converted, is one or zero. -/
theorem pay3_at (x2 : Vec Ideal S1x2048x256 .i32) (r : Fin 2048) (q : Fin 256) :
    k0_pay3 (F := Ideal) x2 (ix2 r q) = tmask x2 r q := by
  have e : k0_pay3 (F := Ideal) x2 (ix2 r q)
      = ((((IntOp.cmpi .ne (shapeCast S2048x256 x2 shapeCasts_S1x2048x256_S2048x256 (ix2 r q)) 0#32).setWidth 32).toInt : ℝ) : EReal) := rfl
  rw [e, shapeCast_1ab_ab_apply x2 shapeCasts_S1x2048x256_S2048x256 r q, toInt_setWidth_bit, Int.cast_natCast]
  rfl

/-- Row `r` of the masked similarities, summed over the columns. -/
theorem pay4_at (x0 : Vec Ideal S1x2048x128 .f32) (x1 : Vec Ideal S1x128x256 .f32) (x2 : Vec Ideal S1x2048x256 .i32)
    (r : Fin 2048) (u : Fin 1) :
    k0_pay4 (F := Ideal) x0 x1 x2 (ix2 r u) = ∑ q : Fin 256, tcos x0 x1 r q * tmask x2 r q := by
  unfold k0_pay4
  refine (shapeCast_a_a1_apply _ shapeCasts_S2048_S2048x1 r u).trans ?_
  refine (sum_row256 _ r).trans ?_
  refine Finset.sum_congr rfl fun q _ => ?_
  refine (mulf_apply _ _ _).trans ?_
  rw [pay3_at]
  refine congrArg (· * tmask x2 r q) ?_
  refine (divf_apply _ _ _).trans ?_
  unfold tcos
  refine congrArg₂ Ideal.div ?_ ?_
  · refine (matmul_at _ _ r q).trans ?_
    refine Finset.sum_congr rfl fun k _ => ?_
    refine congrArg₂ (· * ·) ?_ ?_
    · exact shapeCast_1ab_ab_apply x0 shapeCasts_S1x2048x128_S2048x128 r k
    · exact shapeCast_1ab_ab_apply x1 shapeCasts_S1x128x256_S128x256 k q
  · refine (maximumf_apply _ _ _).trans ?_
    refine congrArg₂ max ?_ rfl
    refine (mulf_apply _ _ _).trans ?_
    refine congrArg₂ (· * ·) ?_ ?_
    · refine (broadcastTo_a1_ab_apply _ broadcasts_S2048x1_S2048x256 r q).trans ?_
      refine (sqrt_apply _ _).trans (congrArg Ideal.sqrt ?_)
      refine (shapeCast_a_a1_apply _ shapeCasts_S2048_S2048x1 r 0).trans ?_
      refine (sum_row128 _ r).trans ?_
      refine Finset.sum_congr rfl fun k _ => ?_
      refine (mulf_apply _ _ _).trans ?_
      rw [shapeCast_1ab_ab_apply x0 shapeCasts_S1x2048x128_S2048x128 r k]
    · refine (broadcastTo_1b_ab_apply _ broadcasts_S1x256_S2048x256 r q).trans ?_
      refine (sqrt_apply _ _).trans (congrArg Ideal.sqrt ?_)
      refine (shapeCast_a_1a_apply _ shapeCasts_S256_S1x256 0 q).trans ?_
      refine (sum_col128 _ q).trans ?_
      refine Finset.sum_congr rfl fun k _ => ?_
      refine (mulf_apply _ _ _).trans ?_
      rw [shapeCast_1ab_ab_apply x1 shapeCasts_S1x128x256_S128x256 k q]

/-! ## Two one-element pieces side by side -/

/-- The concatenation of two `[1, 1]` pieces along the second axis, at `(0, 0)`: the first piece. -/
theorem concat_at_0 (a b : FVec Ideal S1x1 .f32) :
    concatenate S1x2 1 [⟨S1x1, a⟩, ⟨S1x1, b⟩] concatenates_S1x1_S1x1_S1x2_d1 (ix2 0 0) = a (ix2 0 0) :=
  concatenate_apply_piece (1 : Fin S1x2.rank) [⟨S1x1, a⟩, ⟨S1x1, b⟩] concatenates_S1x1_S1x1_S1x2_d1 (ix2 0 0) 0 Nat.zero_lt_two
    S1x1 a rfl rfl 0 rfl (ix2 0 0) (fun c _ => by match c with | ⟨0, _⟩ => rfl | ⟨1, _⟩ => rfl) rfl

/-- … and at `(0, 1)`: the second piece. -/
theorem concat_at_1 (a b : FVec Ideal S1x1 .f32) :
    concatenate S1x2 1 [⟨S1x1, a⟩, ⟨S1x1, b⟩] concatenates_S1x1_S1x1_S1x2_d1 (ix2 0 1) = b (ix2 0 0) :=
  concatenate_apply_piece (1 : Fin S1x2.rank) [⟨S1x1, a⟩, ⟨S1x1, b⟩] concatenates_S1x1_S1x1_S1x2_d1 (ix2 0 1) 1 Nat.one_lt_two
    S1x1 b rfl rfl 1 rfl (ix2 0 0) (fun c hc => by
      match c with
      | ⟨0, _⟩ => rfl
      | ⟨1, _⟩ => exact absurd (Fin.ext rfl) hc) rfl

/-! ## What one grid point adds to the two running totals -/

/-- The first total: what the accumulator held plus the sum of the tile's selected similarities. -/
theorem pay1_sum (x0 : Vec Ideal S1x2048x128 .f32) (x1 : Vec Ideal S1x128x256 .f32) (x2 : Vec Ideal S1x2048x256 .i32)
    (xo : Vec Ideal S1x2 .f32) :
    k0_pay1 (F := Ideal) (k0_pay3 x2) (k0_pay4 x0 x1 x2) xo (ix2 0 0)
      = xo (ix2 0 0) + ∑ r : Fin 2048, ∑ q : Fin 256, tcos x0 x1 r q * tmask x2 r q := by
  unfold k0_pay1
  refine (addf_apply _ _ _).trans ?_
  refine congrArg₂ (· + ·) ?_ ?_
  · exact congrFun (shapeCast_self xo shapeCasts_S1x2_S1x2) _
  · refine (concat_at_0 _ _).trans ?_
    refine (shapeCast_a_1a_apply _ shapeCasts_S1_S1x1 0 0).trans ?_
    refine (sum_col1 _ 0).trans ?_
    exact Finset.sum_congr rfl fun r _ => pay4_at x0 x1 x2 r 0

/-- The second total: what the accumulator held plus the number of the tile's selected pairs. -/
theorem pay1_cnt (x0 : Vec Ideal S1x2048x128 .f32) (x1 : Vec Ideal S1x128x256 .f32) (x2 : Vec Ideal S1x2048x256 .i32)
    (xo : Vec Ideal S1x2 .f32) :
    k0_pay1 (F := Ideal) (k0_pay3 x2) (k0_pay4 x0 x1 x2) xo (ix2 0 1)
      = xo (ix2 0 1) + ∑ r : Fin 2048, ∑ q : Fin 256, tmask x2 r q := by
  unfold k0_pay1
  refine (addf_apply _ _ _).trans ?_
  refine congrArg₂ (· + ·) ?_ ?_
  · exact congrFun (shapeCast_self xo shapeCasts_S1x2_S1x2) _
  · refine (concat_at_1 _ _).trans ?_
    refine (shapeCast_a_1a_apply _ shapeCasts_S1_S1x1 0 0).trans ?_
    refine (sum_col1 _ 0).trans ?_
    refine Finset.sum_congr rfl fun r _ => ?_
    refine (shapeCast_a_a1_apply _ shapeCasts_S2048_S2048x1 r 0).trans ?_
    refine (sum_row256 _ r).trans ?_
    exact Finset.sum_congr rfl fun q _ => pay3_at x2 r q

/-- The first grid point's store: zero at both places. -/
theorem pay2_zero (y : S1x2.Idx) : k0_pay2 (F := Ideal) y = 0 := by
  unfold k0_pay2
  exact Ideal.ofBits_zero_f32

end Cert.CosMean.Tile

end
-- ==== Proof.Accum.lean ====
/-
  The accumulator after each grid point. A tile's similarity read off its staged blocks is the specification's similarity
  at the pair's place in the arrays, and likewise its selection bit; so what point `t` adds to the accumulator's two
  entries is tile `t`'s total of selected similarities and its count of selected pairs. By induction on the point, the
  accumulator after point `n` holds the sums of those totals over tiles `0 … n` (the first point starts from zeros, each
  later one from what the point before left); and over all 128 tiles these are the totals over every pair, the tiles
  partitioning the pairs.
-/
import proofs.«136778_j37254546325509_1_alg».proof.Proof.Found
import proofs.«136778_j37254546325509_1_alg».proof.Proof.Blocks
import proofs.«136778_j37254546325509_1_alg».proof.Proof.TileTotal

set_option maxRecDepth 16384

noncomputable section

open Idealize.ShloMosaic Idealize.ShloMosaic.TcCoe Idealize.SL.Sem
open Idealize.ShloMosaic.Pipeline (Dat)

namespace Cert.KernelIdeal.Accum

open Cert.KernelIdeal Cert.KernelIdeal.Gen Idealize.ShloMosaic.ValueIdx Cert.CosMean Cert.CosMean.Tile
open Cert.KernelIdeal.Blocks Cert.KernelIdeal.Found

variable (m : (ℓ : Loc nD τ sig) → Buf (Elt Ideal) ℓ)

/-- The matrix argument, as the specification reads it. -/
abbrev matX (c : Dev nD) : SPair.Idx → BitVec 32 := m ((c : Thread nD τ).loc main_arg2)

/-- The similarity of a tile's pair, from the staged blocks, is the specification's at the pair's place in the arrays. -/
theorem tcos_eq (c : Dev nD) (t : Fin cfg0.N) (r : Fin 2048) (q : Fin 256) :
    tcos (iblk m c 0 t) (iblk m c 1 t) r q = cosAt (baseF m c) (momF m c) (tImg t) (tRow t r) (tCol t q) := by
  unfold tcos cosAt Cert.CosMean.inner sqLen
  simp only [iblk0_apply, iblk1_apply]

theorem tmask_eq (c : Dev nD) (t : Fin cfg0.N) (r : Fin 2048) (q : Fin 256) :
    tmask (iblk m c 2 t) r q = maskAt (matX m c) (tileIdx (t.cast N_0) r q) := by
  unfold tmask maskAt maskBit
  rw [iblk2_apply]
  rfl

/-- The two totals of tile `t`. -/
def tileSum (c : Dev nD) (t : Fin cfg0.N) : EReal :=
  ∑ r : Fin 2048, ∑ q : Fin 256, selAt (baseF m c) (momF m c) (matX m c) (tileIdx (t.cast N_0) r q)
def tileCnt (c : Dev nD) (t : Fin cfg0.N) : EReal :=
  ∑ r : Fin 2048, ∑ q : Fin 256, maskAt (matX m c) (tileIdx (t.cast N_0) r q)

/-- The same as functions of every natural (zero past the grid), for sums over ranges. -/
def addSum (c : Dev nD) (n : ℕ) : EReal := if h : n < cfg0.N then tileSum m c ⟨n, h⟩ else 0
def addCnt (c : Dev nD) (n : ℕ) : EReal := if h : n < cfg0.N then tileCnt m c ⟨n, h⟩ else 0

/-- What a point adds, in the specification's terms. -/
theorem step_sum (c : Dev nD) (t : Fin cfg0.N) (xo : Vec Ideal S1x2 .f32) :
    k0_pay1 (F := Ideal) (k0_pay3 (iblk m c 2 t)) (k0_pay4 (iblk m c 0 t) (iblk m c 1 t) (iblk m c 2 t)) xo (ix2 0 0)
      = xo (ix2 0 0) + tileSum m c t := by
  rw [pay1_sum]
  unfold tileSum selAt
  simp only [tcos_eq, tmask_eq, tileIdx_eq]

theorem step_cnt (c : Dev nD) (t : Fin cfg0.N) (xo : Vec Ideal S1x2 .f32) :
    k0_pay1 (F := Ideal) (k0_pay3 (iblk m c 2 t)) (k0_pay4 (iblk m c 0 t) (iblk m c 1 t) (iblk m c 2 t)) xo (ix2 0 1)
      = xo (ix2 0 1) + tileCnt m c t := by
  rw [pay1_cnt]
  unfold tileCnt
  simp only [tmask_eq]

/-- After point `n` the accumulator's first entry is the sum of the tiles' similarity totals so far, -/
theorem outsAt_sum (c : Dev nD) : ∀ (n : ℕ) (h : n < cfg0.N),
    outsAt0 m c n h (ix2 0 0) = ∑ s ∈ Finset.range (n + 1), addSum m c s
  | 0, h => by
    rw [congrFun ((outsAt0_A m c ⟨0, h⟩ rfl).trans (out_A ..)) (ix2 0 0), step_sum, pay2_zero, zero_add,
      Finset.sum_range_one, addSum, dif_pos h]
  | n + 1, h => by
    have hN : cfg0.N = 128 := N_0
    have hB : ¬(⟨n + 1, h⟩ : Fin cfg0.N).val % 128 = 0 := by dsimp only; omega
    rw [congrFun ((outsAt0_B m c ⟨n + 1, h⟩ hB).trans (out_B ..)) (ix2 0 0), step_sum]
    show outsAt0 m c n _ (ix2 0 0) + _ = _
    rw [outsAt_sum c n, Finset.sum_range_succ _ (n + 1), addSum, dif_pos h]

/-- and its second entry their counts so far. -/
theorem outsAt_cnt (c : Dev nD) : ∀ (n : ℕ) (h : n < cfg0.N),
    outsAt0 m c n h (ix2 0 1) = ∑ s ∈ Finset.range (n + 1), addCnt m c s
  | 0, h => by
    rw [congrFun ((outsAt0_A m c ⟨0, h⟩ rfl).trans (out_A ..)) (ix2 0 1), step_cnt, pay2_zero, zero_add,
      Finset.sum_range_one, addCnt, dif_pos h]
  | n + 1, h => by
    have hN : cfg0.N = 128 := N_0
    have hB : ¬(⟨n + 1, h⟩ : Fin cfg0.N).val % 128 = 0 := by dsimp only; omega
    rw [congrFun ((outsAt0_B m c ⟨n + 1, h⟩ hB).trans (out_B ..)) (ix2 0 1), step_cnt]
    show outsAt0 m c n _ (ix2 0 1) + _ = _
    rw [outsAt_cnt c n, Finset.sum_range_succ _ (n + 1), addCnt, dif_pos h]

/-- Over the whole grid the tiles' totals are the totals over all pairs. -/
theorem range_sum (c : Dev nD) : ∑ s ∈ Finset.range 128, addSum m c s = selSum (baseF m c) (momF m c) (matX m c) := by
  unfold selSum
  rw [sum_tiles, ← Fin.sum_univ_eq_sum_range (fun s => addSum m c s) 128]
  refine Finset.sum_congr rfl fun t _ => ?_
  have ht : t.val < cfg0.N := lt_of_lt_of_eq t.isLt (show 128 = cfg0.N from N_0.symm)
  unfold addSum
  rw [dif_pos ht]
  rfl

theorem range_cnt (c : Dev nD) : ∑ s ∈ Finset.range 128, addCnt m c s = selCount (matX m c) := by
  unfold selCount
  rw [sum_tiles, ← Fin.sum_univ_eq_sum_range (fun s => addCnt m c s) 128]
  refine Finset.sum_congr rfl fun t _ => ?_
  have ht : t.val < cfg0.N := lt_of_lt_of_eq t.isLt (show 128 = cfg0.N from N_0.symm)
  unfold addCnt
  rw [dif_pos ht]
  rfl

end Cert.KernelIdeal.Accum
end
-- ==== Proof.Tail.lean ====
/-
  The lines after the region, read at the one index of the result: the first entry of the one-by-two block, negated,
  over its second entry.

  A slice of one row and one column at column c, read at its one index, is the block's entry (0, c); a reshape of a
  one-by-one array to a scalar, read at the scalar's one index, is that array's one entry, both at row-major position 0;
  the negation and the quotient act on the one element.
-/
import proofs.«136778_j37254546325509_1_alg».proof.KernelIdeal
import Idealize.ShloMosaic.Lib.Pipeline.Value
import Idealize.ShloMosaic.Lib.ValueIdx
import Idealize.ShloMosaic.PureOps.Ideal

noncomputable section

namespace Cert.CosMean.TailRead

open Idealize.ShloMosaic Idealize.ShloMosaic.ValueIdx
open Cert.KernelIdeal Cert.KernelIdeal.Facts₀ Cert.KernelIdeal.Facts

variable [Cert.KernelIdeal.Facts]

/-- The lines after the region: entry (0,0) of the [1,2] block negated, over entry (0,1). -/
def tail {F : FTy → Type} [FloatOps F] (a : Vec F S1x2 .f32) : S_.Idx → F .f32 :=
  Host.divf (Host.negf (shapeCast S_ (extractStridedSlice S1x1 ![0, 0] a slices_S1x2_S1x1_0_0) shapeCasts_S1x1_S_))
    (shapeCast S_ (extractStridedSlice S1x1 ![0, 1] a slices_S1x2_S1x1_0_1) shapeCasts_S1x1_S_)

/-- A one-by-one array has one row-major position, and so has the scalar shape: any index of the one and any of the
    other sit at the same position. -/
theorem rowMajor_one_eq (k : S1x1.Idx) (j : S_.Idx) : (S1x1.rowMajor k).val = (S_.rowMajor j).val := by
  have h1 := (S1x1.rowMajor k).isLt
  have h2 := (S_.rowMajor j).isLt
  have e1 : S1x1.numel = 1 := Shape.numel_eq_one fun a => by match a with | ⟨0, _⟩ => rfl | ⟨1, _⟩ => rfl
  have e2 : S_.numel = 1 := Shape.numel_eq_one fun a => a.elim0
  omega

theorem tail_apply (a : Vec Ideal S1x2 .f32) (j : S_.Idx) :
    tail (F := Ideal) a j = Ideal.div (-(a (ix2 0 0))) (a (ix2 0 1)) := by
  have h0 : shapeCast S_ (extractStridedSlice S1x1 ![0, 0] a slices_S1x2_S1x1_0_0) shapeCasts_S1x1_S_ j = a (ix2 0 0) := by
    rw [shapeCast_apply _ shapeCasts_S1x1_S_ j (ix2 0 0) (rowMajor_one_eq _ j)]
    exact extractStridedSlice_apply _ a slices_S1x2_S1x1_0_0 (ix2 0 0) (ix2 0 0)
      (fun b => by match b with | ⟨0, _⟩ => rfl | ⟨1, _⟩ => rfl)
  have h1 : shapeCast S_ (extractStridedSlice S1x1 ![0, 1] a slices_S1x2_S1x1_0_1) shapeCasts_S1x1_S_ j = a (ix2 0 1) := by
    rw [shapeCast_apply _ shapeCasts_S1x1_S_ j (ix2 0 0) (rowMajor_one_eq _ j)]
    exact extractStridedSlice_apply _ a slices_S1x2_S1x1_0_1 (ix2 0 0) (ix2 0 1)
      (fun b => by match b with | ⟨0, _⟩ => rfl | ⟨1, _⟩ => rfl)
  show FloatOps.hostDivf (FloatOps.hostNegf _) _ = _
  rw [h0, h1, Ideal.hostDivf_def, Ideal.hostNegf_def, Ideal.negf_def]

end Cert.CosMean.TailRead

end
-- ==== Proof.Total.lean ====
/-
  The kernel's run, read as a value. The accumulator window's block never moves and is written back once, after the last
  grid point; its block is the whole [1,2] result array of the region, so that array ends holding what the accumulator held
  after the last point. The lines after the region take the array's two entries, negate the first and divide by the
  second. The write-back is identified by its place in the schedule (the one point whose number is 127 modulo 128), and the
  accumulator window's block index is zero on both axes at every point of the grid.
-/
import proofs.«136778_j37254546325509_1_alg».proof.Proof.Found
import proofs.«136778_j37254546325509_1_alg».proof.Proof.Blocks
import proofs.«136778_j37254546325509_1_alg».proof.Proof.TileTotal
import proofs.«136778_j37254546325509_1_alg».proof.Proof.Tail

set_option maxRecDepth 16384

noncomputable section

open Idealize.ShloMosaic Idealize.ShloMosaic.TcCoe Idealize.SL.Sem
open Idealize.ShloMosaic.Pipeline (Dat)

namespace Cert.KernelIdeal.Total

open Cert.KernelIdeal Cert.KernelIdeal.Gen Idealize.ShloMosaic.ValueIdx Cert.CosMean.TailRead

variable {F : FTy → Type} [FloatOps F]
variable (m : (ℓ : Loc nD τ sig) → Buf (Elt F) ℓ) (ρ : Dev nD → PrngReg)

theorem lastLt : 127 < cfg0.N := by rw [show cfg0.N = 128 from N_0]; decide

/-- What the accumulator block holds after the last point. -/
abbrev acc (c : Dev nD) : Buf (Elt F) ((c : Thread nD τ).loc main_v3) := outsAt0 m c 127 lastLt

theorem outsAt_last (c : Dev nD) : ∀ (n : ℕ) (hn : n < cfg0.N), n = 127 → outsAt0 m c n hn = acc m c := by
  intro n hn e; subst e; rfl

/-- The accumulator window's block index is (0, 0) at every point, and its block is the whole [1,2] array. -/
theorem index3 : ∀ t : Fin cfg0.N, win0_3.index t (0 : Fin 2) = 0 ∧ win0_3.index t (1 : Fin 2) = 0
      ∧ win0_3.xsize (grid0.coords t) (0 : Fin 2) = 1 ∧ win0_3.xsize (grid0.coords t) (1 : Fin 2) = 2 :=
  (by decide +kernel : ∀ t : Fin grid0.N, win0_3.index t (0 : Fin 2) = 0 ∧ win0_3.index t (1 : Fin 2) = 0
      ∧ win0_3.xsize (grid0.coords t) (0 : Fin 2) = 1 ∧ win0_3.xsize (grid0.coords t) (1 : Fin 2) = 2)

/-- The one write-back, after the last point, writes that: the [1,2] block at index (0,0) is the whole [1,2] array. -/
theorem flushed_eq (c : Dev nD) (t : Fin cfg0.N) (hf : (cfg0.win 3).flush t = true) :
    (dats m 0 c).flushed 3 t = ((cfg0.win 3).blk t).view.read (Elt F) (acc m c) := by
  have hN : cfg0.N = 128 := N_0
  have h3 : t.val = 127 := by have := (flush0_3 t).mp hf; have := t.isLt; omega
  show (cfg0.win 3).cut (grid0.coords t) ((dats m 0 c).after 3 t) = _
  rw [after0_3, outsAt_last m c t.val t.isLt h3]
  have hz' : (fun a => win0_3.index t a * main_v3.ty.shape.size a) = fun _ => 0 := funext fun a => by
    match a with
    | ⟨0, _⟩ => show win0_3.index t 0 * _ = 0; rw [(index3 t).1]; exact Nat.zero_mul _
    | ⟨1, _⟩ => show win0_3.index t 1 * _ = 0; rw [(index3 t).2.1]; exact Nat.zero_mul _
  exact (Memref.read_access_unit_zero (Elt F) main_v3 hz' (fun a => by rw [congrFun hz' a]; simp) (acc m c)).symm

/-- The block covers the array, at any point. -/
theorem mem_blk (t : Fin cfg0.N) (i : S1x2.Idx) : i ∈ ((cfg0.win 3).blk t).view.set := by
  show i ∈ ((View.whole main_v3).slice (win0_3.rect t)).set
  rw [View.set_slice_whole, Rect.mem_set_unit]
  intro a
  have h0 : (i 0 : Nat) < 1 := (i 0).isLt
  have h1 : (i 1 : Nat) < 2 := (i 1).isLt
  match a with
  | ⟨0, _⟩ =>
    show win0_3.index t 0 * win0_3.size 0 ≤ (i 0 : Nat) ∧ (i 0 : Nat) < win0_3.index t 0 * win0_3.size 0 + win0_3.xsize (grid0.coords t) 0
    rw [(index3 t).1, (index3 t).2.2.1]; omega
  | ⟨1, _⟩ =>
    show win0_3.index t 1 * win0_3.size 1 ≤ (i 1 : Nat) ∧ (i 1 : Nat) < win0_3.index t 1 * win0_3.size 1 + win0_3.xsize (grid0.coords t) 1
    rw [(index3 t).2.1, (index3 t).2.2.2]; omega

/-- So the result array of the region ends holding it. -/
theorem final (c : Dev nD) : (dats m 0 c).arrAt 3 cfg0.N = acc m c :=
  (dats m 0 c).arrAt_eq_of_cover 3 (acc m c) (flushed_eq m c) fun i =>
    ⟨⟨127, lastLt⟩, (flush0_3 _).mpr rfl, mem_blk _ i⟩

/-- The lines after the region compute the result from that array: its first entry negated, over its second. -/
theorem tail_eq (c : Dev nD) :
    Pipeline.afterTail₀ cfgs (dats m) 0 (V0 m) [hostOps1] c main_v9 = tail (acc m c) := by
  unfold Pipeline.afterTail₀
  show StableHlo.after hostOps1 _ (Proc.devRef .tc main_v9) = _
  after_results
  rw [show Pipeline.withArrays (cfgs 0).spec c (V0 m c) (fun w => (dats m 0 c).arrAt w (cfgs 0).N) (Proc.devRef .tc main_v3)
      = acc m c from (Pipeline.withArrays_arr spec0 launch0.win.arr_inj c _ _ 3).trans (final m c)]
  rfl

/-- The kernel's run: every weakly fair execution ends with the result at the tail of the accumulator's final contents
    and the three arguments as launched. -/
theorem run : θ_run defs (onTc (τ := τ) (main (F := F))) ⟨m, fun _ => 0, ρ⟩ fun r => ∀ c : Dev nD,
      r.2.mem ((c.tc : Thread nD τ).loc main_v9) = tail (acc m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v9 (Pipeline.mem_restRefs_of main_v9 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩) (run_main m ρ)

end Cert.KernelIdeal.Total
end
-- ==== Proof.Loss.lean ====
/-
  The kernel computes the specification's loss: after the last point the accumulator's two entries are the sum of the
  selected similarities and the number of selected pairs over all pairs, and the lines after the region form minus the
  first over the second.
-/
import proofs.«136778_j37254546325509_1_alg».proof.Proof.Accum
import proofs.«136778_j37254546325509_1_alg».proof.Proof.Total

set_option maxRecDepth 16384

noncomputable section

open Idealize.ShloMosaic Idealize.ShloMosaic.TcCoe Idealize.SL.Sem

namespace Cert.KernelIdeal.Loss

open Cert.KernelIdeal Cert.KernelIdeal.Gen Idealize.ShloMosaic.ValueIdx Cert.CosMean Cert.CosMean.TailRead
open Cert.KernelIdeal.Blocks Cert.KernelIdeal.Accum Cert.KernelIdeal.Total

variable (m : (ℓ : Loc nD τ sig) → Buf (Elt Ideal) ℓ)

theorem acc_sum (c : Dev nD) : acc m c (ix2 0 0) = selSum (baseF m c) (momF m c) (matX m c) :=
  (outsAt_sum m c 127 lastLt).trans (range_sum m c)

theorem acc_cnt (c : Dev nD) : acc m c (ix2 0 1) = selCount (matX m c) :=
  (outsAt_cnt m c 127 lastLt).trans (range_cnt m c)

/-- The kernel's result is the loss of the flattened feature arrays and the matrix. -/
theorem result_eq (c : Dev nD) : tail (acc m c) = fun _ => loss (baseF m c) (momF m c) (matX m c) :=
  funext fun j => by rw [tail_apply, acc_sum, acc_cnt]; rfl

end Cert.KernelIdeal.Loss

end
-- ==== Proof.lean ====
/-
  The masked cosine-similarity mean: a tiled kernel against its array-at-once reference.

  Both programs flatten the two feature arrays to [image, channel, position]. For a pair (p, q) of positions of an image
  the similarity is the inner product of the momentum's channel vector at p with the base's at q over the product of
  their lengths clamped below by ε; a pair is selected when its matrix entry is not zero; the loss is minus the sum of
  the selected similarities over their number (Proof/Spec.lean). The reference forms the whole pair array, selects with
  zero elsewhere, and sums it, counting the selected pairs in 32-bit integers, where a count of at most 2²⁶ cannot wrap
  (Proof/RefLoss.lean). The kernel walks the 4 · 2 · 16 tiles of 2048 × 256 pairs, adding each tile's two totals into a
  [1,2] accumulator it zeroes at the first tile (Proof/TileTotal.lean: a tile's totals from its staged blocks;
  Proof/Found.lean and Proof/Blocks.lean: what a grid point stores and what its blocks are; Proof/Accum.lean: the
  accumulator after each tile, and after the last the totals over all pairs since the tiles partition them;
  Proof/Total.lean and Proof/Tail.lean: the write-back and the lines after the region; Proof/Loss.lean: the result is the
  loss). On the extended reals a sum does not depend on its order or grouping, a multiplication by the selection's one or
  zero is the selection, and the kernel's matrix product, row sums and quotient are the reference's contraction, sums and
  quotient; so the two results are one function of the arguments, with no use of the inputs' finiteness.
-/
import proofs.«136778_j37254546325509_1_alg».proof.Defs
import proofs.«136778_j37254546325509_1_alg».proof.Proof.Gen.Kernel
import proofs.«136778_j37254546325509_1_alg».proof.Proof.Gen.Kernel.Frame
import proofs.«136778_j37254546325509_1_alg».proof.Proof.Gen.KernelIdeal
import proofs.«136778_j37254546325509_1_alg».proof.Proof.Gen.KernelIdeal.Frame
import proofs.«136778_j37254546325509_1_alg».proof.Proof.Gen.ReferenceIdeal
import proofs.«136778_j37254546325509_1_alg».proof.Proof.Gen.ReferenceIdeal.Run
import proofs.«136778_j37254546325509_1_alg».proof.Proof.Gen.ReferenceIdeal.Read
import proofs.«136778_j37254546325509_1_alg».proof.Proof.Gen.Pre_finite_inputs
import proofs.«136778_j37254546325509_1_alg».proof.Proof.Spec
import proofs.«136778_j37254546325509_1_alg».proof.Proof.RefLoss
import proofs.«136778_j37254546325509_1_alg».proof.Proof.Loss
import Idealize.ShloMosaic.Adequacy
import Idealize.ShloMosaic.Init

noncomputable section

namespace Cert.Proof

open Idealize.ShloMosaic Idealize.SL.Sem

/-- The word-level kernel terminates without a fault and leaves its arguments as launched. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference is a straight line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing of the kernel was rewritten to read it on the extended reals. -/
theorem preserves : Cert.preserves_Kernel_KernelIdeal := trivial

/-- From memories agreeing on the arguments both programs end at the loss of the flattened feature arrays and the
    matrix: the kernel by its accumulated tile totals, the reference by its whole-array sums. -/
theorem algebraic : Cert.algebraic_KernelIdeal_ReferenceIdeal := by
  intro m ρ m' ρ' _ hagree
  refine ⟨fun c => Cert.CosMean.TailRead.tail (Cert.KernelIdeal.Total.acc m c), Cert.KernelIdeal.Total.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.CosMean.Ref.loss_eq, (hagree c).1, (hagree c).2.1, (hagree c).2.2]
  show _ = Cert.CosMean.TailRead.tail (Cert.KernelIdeal.Total.acc m c)
  rw [Cert.KernelIdeal.Loss.result_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
